-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v18)) (v1 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_v19) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_v24) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x2048x512 : Shape := ⟨3, ![32, 2048, 512]⟩
abbrev S32 : Shape := ⟨1, ![32]⟩
abbrev S32x2048 : Shape := ⟨2, ![32, 2048]⟩
abbrev S50257 : Shape := ⟨1, ![50257]⟩
abbrev S_ : Shape := ⟨0, ![]⟩

class Facts : Prop where
  bcast_S_S32x2048x512 : S_.BroadcastsInDim S32x2048x512 (![] : Fin 0 → Fin S32x2048x512.rank)
  reducesTo_S32x2048x512_S_d0_1_2 : S32x2048x512.ReducesTo [0, 1, 2] S_
  h_S_ : 0 < S_.numel
  bcast_S_S50257 : S_.BroadcastsInDim S50257 (![] : Fin 0 → Fin S50257.rank)
  reducesTo_S50257_S_d0 : S50257.ReducesTo [0] S_

variable [Facts]

def fn {F : FTy → Type} [FloatOps F] (main_arg0 : FVec F S32x2048x512 .f32) (main_arg1 : IVec S32 32) (main_arg2 : IVec S32x2048 32) (main_arg3 : FVec F S50257 .f32) : IVec S_ 1 :=
  let main_v0 : FVec F S32x2048x512 .f32 := Host.absf main_arg0
  let main_cst : FVec F S_ .f32 := constant S_ .f32 0x7F800000#32
  let main_v1 : FVec F S32x2048x512 .f32 := broadcastInDim S32x2048x512 ![] bcast_S_S32x2048x512 main_cst
  let main_v2 : IVec S32x2048x512 1 := cmpf .olt main_v0 main_v1
  let main_c : IVec S_ 1 := constantI S_ 1 1#1
  let main_v3 : IVec S_ 1 := (fun x v => Host.reduce IntOp.andi x v reducesTo_S32x2048x512_S_d0_1_2 h_S_) main_v2 main_c
  let main_v4 : FVec F S50257 .f32 := Host.absf main_arg3
  let main_cst_0 : FVec F S_ .f32 := constant S_ .f32 0x7F800000#32
  let main_v5 : FVec F S50257 .f32 := broadcastInDim S50257 ![] bcast_S_S50257 main_cst_0
  let main_v6 : IVec S50257 1 := cmpf .olt main_v4 main_v5
  let main_c_1 : IVec S_ 1 := constantI S_ 1 1#1
  let main_v7 : IVec S_ 1 := (fun x v => Host.reduce IntOp.andi x v reducesTo_S50257_S_d0 h_S_) main_v6 main_c_1
  let main_v8 : IVec S_ 1 := andi main_v3 main_v7
  main_v8
-- ==== Kernel.lean ====
abbrev S32x2048x512 : Shape := ⟨3, ![32, 2048, 512]⟩
abbrev S32 : Shape := ⟨1, ![32]⟩
abbrev S32x2048 : Shape := ⟨2, ![32, 2048]⟩
abbrev S50257 : Shape := ⟨1, ![50257]⟩
abbrev S2048 : Shape := ⟨1, ![2048]⟩
abbrev S1x2048 : Shape := ⟨2, ![1, 2048]⟩
abbrev S32x1 : Shape := ⟨2, ![32, 1]⟩
abbrev S_ : Shape := ⟨0, ![]⟩
abbrev S32x2048x1 : Shape := ⟨3, ![32, 2048, 1]⟩
abbrev S32x1x2048 : Shape := ⟨3, ![32, 1, 2048]⟩
abbrev S32x1x512 : Shape := ⟨3, ![32, 1, 512]⟩
abbrev S1x2048x512 : Shape := ⟨3, ![1, 2048, 512]⟩
abbrev S1x1x2048 : Shape := ⟨3, ![1, 1, 2048]⟩
abbrev S1x1x512 : Shape := ⟨3, ![1, 1, 512]⟩
abbrev S2048x512 : Shape := ⟨2, ![2048, 512]⟩
abbrev S1x512 : Shape := ⟨2, ![1, 512]⟩
abbrev S32x512 : Shape := ⟨2, ![32, 512]⟩

abbrev nBuf : Space → Nat
  | .hbm => 27
  | .vmem => 10
  | .smem => 0
  | _ => 0

abbrev bufTy : (tb : Table) → Fin (tcTables nBuf tb) → BufTy
  | .hbm, ⟨0, _⟩ => ⟨S32x2048x512, .f32⟩
  | .hbm, ⟨1, _⟩ => ⟨S32, .i32⟩
  | .hbm, ⟨2, _⟩ => ⟨S32x2048, .i32⟩
  | .hbm, ⟨3, _⟩ => ⟨S50257, .f32⟩
  | .hbm, ⟨4, _⟩ => ⟨S2048, .i32⟩
  | .hbm, ⟨5, _⟩ => ⟨S1x2048, .i32⟩
  | .hbm, ⟨6, _⟩ => ⟨S32x1, .i32⟩
  | .hbm, ⟨7, _⟩ => ⟨S32x2048, .i32⟩
  | .hbm, ⟨8, _⟩ => ⟨S32x2048, .i32⟩
  | .hbm, ⟨9, _⟩ => ⟨S32x2048, .i1⟩
  | .hbm, ⟨10, _⟩ => ⟨S32x2048, .f32⟩
  | .hbm, ⟨11, _⟩ => ⟨S_, .i32⟩
  | .hbm, ⟨12, _⟩ => ⟨S32x2048, .i32⟩
  | .hbm, ⟨13, _⟩ => ⟨S32x2048, .i1⟩
  | .hbm, ⟨14, _⟩ => ⟨S_, .i32⟩
  | .hbm, ⟨15, _⟩ => ⟨S32x2048, .i32⟩
  | .hbm, ⟨16, _⟩ => ⟨S32x2048, .i32⟩
  | .hbm, ⟨17, _⟩ => ⟨S32x2048, .i32⟩
  | .hbm, ⟨18, _⟩ => ⟨S32x2048x1, .i32⟩
  | .hbm, ⟨19, _⟩ => ⟨S32x2048, .f32⟩
  | .hbm, ⟨20, _⟩ => ⟨S32x2048, .f32⟩
  | .hbm, ⟨21, _⟩ => ⟨S32x1x2048, .f32⟩
  | .hbm, ⟨22, _⟩ => ⟨S32x1x2048, .f32⟩
  | .hbm, ⟨23, _⟩ => ⟨S32x1x512, .f32⟩
  | .hbm, ⟨24, _⟩ => ⟨S32x1x512, .f32⟩
  | .hbm, ⟨25, _⟩ => ⟨S32x512, .f32⟩
  | .hbm, ⟨26, _⟩ => ⟨S32x512, .f32⟩
  | .local _ .vmem, ⟨0, _⟩ => ⟨S1x2048x512, .f32⟩
  | .local _ .vmem, ⟨1, _⟩ => ⟨S1x2048x512, .f32⟩
  | .local _ .vmem, ⟨2, _⟩ => ⟨S1x1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x512, .f32⟩
  | .local _ .vmem, ⟨7, _⟩ => ⟨S1x1x512, .f32⟩
  | .local _ .vmem, ⟨8, _⟩ => ⟨S1x1x512, .f32⟩
  | .local _ .vmem, ⟨9, _⟩ => ⟨S1x1x512, .f32⟩
  | _, _ => ⟨S32x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_v7 : Ref sig .tc := ⟨.hbm, 12, rfl⟩
abbrev main_v8 : Ref sig .tc := ⟨.hbm, 13, rfl⟩
abbrev main_c_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17_0 : Ref sig .tc := ⟨.hbm, 23, rfl⟩
abbrev main_v17_1 : Ref sig .tc := ⟨.hbm, 24, rfl⟩
abbrev main_v18 : Ref sig .tc := ⟨.hbm, 25, rfl⟩
abbrev main_v19 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S2048_S1x2048_1 : S2048.BroadcastsInDim S1x2048 (![1] : Fin 1 → Fin S1x2048.rank)
  bcast_S32_S32x1_0 : S32.BroadcastsInDim S32x1 (![0] : Fin 1 → Fin S32x1.rank)
  bcast_S1x2048_S32x2048_0_1 : S1x2048.BroadcastsInDim S32x2048 (![0, 1] : Fin 2 → Fin S32x2048.rank)
  bcast_S32x1_S32x2048_0_1 : S32x1.BroadcastsInDim S32x2048 (![0, 1] : Fin 2 → Fin S32x2048.rank)
  bcast_S_S32x2048 : S_.BroadcastsInDim S32x2048 (![] : Fin 0 → Fin S32x2048.rank)
  bcast_S32x2048_S32x2048x1_0_1 : S32x2048.BroadcastsInDim S32x2048x1 (![0, 1] : Fin 2 → Fin S32x2048x1.rank)
  bcast_S32x2048_S32x1x2048_0_2 : S32x2048.BroadcastsInDim S32x1x2048 (![0, 2] : Fin 2 → Fin S32x1x2048.rank)
  inb_S1x2048x512_S1x2048x512_0_0_0 : ∀ a, (![0, 0, 0] : Fin 3 → Nat) a + S1x2048x512.size a ≤ S1x2048x512.size a
  h_S1x2048x512 : 0 < S1x2048x512.numel
  shapeCasts_S1x2048x512_S2048x512 : S1x2048x512.ShapeCasts S2048x512
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S1x2048 : S1x1x2048.ShapeCasts S1x2048
  shapeCasts_S1x512_S1x1x512 : S1x512.ShapeCasts S1x1x512
  inb_S1x1x512_S1x1x512_0_0_0 : ∀ a, (![0, 0, 0] : Fin 3 → Nat) a + S1x1x512.size a ≤ S1x1x512.size a
  h_S1x1x512 : 0 < S1x1x512.numel
  shapeCasts_S32x1x512_S32x512 : S32x1x512.ShapeCasts S32x512
  gather_S50257_S32x2048x1_S32x2048_n_0_n_n_0_2_1_wf : GatherDims.WF S50257 S32x2048x1 S32x2048 [] [0] [] [0] [] 2 ![1]
  dot_S1x2048_S2048x512_S1x512_1_0_0_1_n_n_wf : DotDims.WF S1x2048 S2048x512 S1x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x512.size a ≤ S32x2048x512.size a
  hwx0_0 : ∀ i : grid0.Coords, EltTy.bits .f32 = 32 ∨ (Rect.block (s := S32x2048x512) S1x2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x2048.size a ≤ S32x1x2048.size a
  hwx0_1 : ∀ i : grid0.Coords, EltTy.bits .f32 = 32 ∨ (Rect.block (s := S32x1x2048) S1x1x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x2048.size a ≤ S32x1x2048.size a
  hwx0_2 : ∀ i : grid0.Coords, EltTy.bits .f32 = 32 ∨ (Rect.block (s := S32x1x2048) S1x1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x512.size a ≤ S32x1x512.size a
  hwx0_3 : ∀ i : grid0.Coords, EltTy.bits .f32 = 32 ∨ (Rect.block (s := S32x1x512) S1x1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x512.size a ≤ S32x1x512.size a
  hwx0_4 : ∀ i : grid0.Coords, EltTy.bits .f32 = 32 ∨ (Rect.block (s := S32x1x512) S1x1x512.size (cc0_transform_4 i) (hinb0_4 i)).WholeWords (EltTy.packing .f32)

variable [Facts₀]

def gather_S50257_S32x2048x1_S32x2048_n_0_n_n_0_2_1 : GatherDims S50257 S32x2048x1 S32x2048 where
  offsetDims := []
  collapsedSliceDims := [0]
  operandBatchingDims := []
  startIndicesBatchingDims := []
  startIndexMap := [0]
  indexVectorDim := 2
  sliceSizes := ![1]
  wf := gather_S50257_S32x2048x1_S32x2048_n_0_n_n_0_2_1_wf
def dot_S1x2048_S2048x512_S1x512_1_0_0_1_n_n : DotDims S1x2048 S2048x512 S1x512 where
  lhsContracting := [1]
  rhsContracting := [0]
  lhsNonContracting := [0]
  rhsNonContracting := [1]
  lhsBatch := []
  rhsBatch := []
  wf := dot_S1x2048_S2048x512_S1x512_1_0_0_1_n_n_wf

abbrev win0_0 : Pipeline.Window sig grid0 :=
  Pipeline.Window.ofSpec (Memref.whole main_arg0) S1x2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S1x1x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v16) S1x1x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v17_0) S1x1x512.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v17_1) S1x1x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S32x2048x512 : Shape := ⟨3, ![32, 2048, 512]⟩
abbrev S32 : Shape := ⟨1, ![32]⟩
abbrev S32x2048 : Shape := ⟨2, ![32, 2048]⟩
abbrev S50257 : Shape := ⟨1, ![50257]⟩
abbrev S2048 : Shape := ⟨1, ![2048]⟩
abbrev S1x2048 : Shape := ⟨2, ![1, 2048]⟩
abbrev S32x1 : Shape := ⟨2, ![32, 1]⟩
abbrev S32x2048x1 : Shape := ⟨3, ![32, 2048, 1]⟩
abbrev S_ : Shape := ⟨0, ![]⟩
abbrev S32x512 : Shape := ⟨2, ![32, 512]⟩

abbrev nBuf : Space → Nat
  | .hbm => 34
  | .vmem => 0
  | .smem => 0
  | _ => 0

abbrev bufTy : (tb : Table) → Fin (tcTables nBuf tb) → BufTy
  | .hbm, ⟨0, _⟩ => ⟨S32x2048x512, .f32⟩
  | .hbm, ⟨1, _⟩ => ⟨S32, .i32⟩
  | .hbm, ⟨2, _⟩ => ⟨S32x2048, .i32⟩
  | .hbm, ⟨3, _⟩ => ⟨S50257, .f32⟩
  | .hbm, ⟨4, _⟩ => ⟨S2048, .i32⟩
  | .hbm, ⟨5, _⟩ => ⟨S1x2048, .i32⟩
  | .hbm, ⟨6, _⟩ => ⟨S32x1, .i32⟩
  | .hbm, ⟨7, _⟩ => ⟨S32x2048, .i32⟩
  | .hbm, ⟨8, _⟩ => ⟨S32x2048, .i32⟩
  | .hbm, ⟨9, _⟩ => ⟨S32x2048, .i1⟩
  | .hbm, ⟨10, _⟩ => ⟨S32x2048, .f32⟩
  | .hbm, ⟨11, _⟩ => ⟨S32x2048x1, .f32⟩
  | .hbm, ⟨12, _⟩ => ⟨S32x2048x512, .f32⟩
  | .hbm, ⟨13, _⟩ => ⟨S32x2048x512, .f32⟩
  | .hbm, ⟨14, _⟩ => ⟨S_, .f32⟩
  | .hbm, ⟨15, _⟩ => ⟨S32x512, .f32⟩
  | .hbm, ⟨16, _⟩ => ⟨S32x2048x512, .f32⟩
  | .hbm, ⟨17, _⟩ => ⟨S_, .f32⟩
  | .hbm, ⟨18, _⟩ => ⟨S32x512, .f32⟩
  | .hbm, ⟨19, _⟩ => ⟨S32x512, .f32⟩
  | .hbm, ⟨20, _⟩ => ⟨S_, .i32⟩
  | .hbm, ⟨21, _⟩ => ⟨S32x2048, .i32⟩
  | .hbm, ⟨22, _⟩ => ⟨S32x2048, .i1⟩
  | .hbm, ⟨23, _⟩ => ⟨S_, .i32⟩
  | .hbm, ⟨24, _⟩ => ⟨S32x2048, .i32⟩
  | .hbm, ⟨25, _⟩ => ⟨S32x2048, .i32⟩
  | .hbm, ⟨26, _⟩ => ⟨S32x2048, .i32⟩
  | .hbm, ⟨27, _⟩ => ⟨S32x2048x1, .i32⟩
  | .hbm, ⟨28, _⟩ => ⟨S32x2048, .f32⟩
  | .hbm, ⟨29, _⟩ => ⟨S32x2048x1, .f32⟩
  | .hbm, ⟨30, _⟩ => ⟨S32x2048x512, .f32⟩
  | .hbm, ⟨31, _⟩ => ⟨S32x2048x512, .f32⟩
  | .hbm, ⟨32, _⟩ => ⟨S_, .f32⟩
  | .hbm, ⟨33, _⟩ => ⟨S32x512, .f32⟩
  | _, _ => ⟨S32x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_c : Ref sig .tc := ⟨.hbm, 20, rfl⟩
abbrev main_v14 : Ref sig .tc := ⟨.hbm, 21, rfl⟩
abbrev main_v15 : Ref sig .tc := ⟨.hbm, 22, rfl⟩
abbrev main_c_1 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_2 : Ref sig .tc := ⟨.hbm, 32, rfl⟩
abbrev main_v24 : Ref sig .tc := ⟨.hbm, 33, rfl⟩

abbrev nD : Nat := 1
abbrev τ : Topo := Topo.v7x

variable {F : FTy → Type} [FloatOps F]

class Facts₀ : Prop where
  bcast_S2048_S1x2048_1 : S2048.BroadcastsInDim S1x2048 (![1] : Fin 1 → Fin S1x2048.rank)
  bcast_S32_S32x1_0 : S32.BroadcastsInDim S32x1 (![0] : Fin 1 → Fin S32x1.rank)
  bcast_S1x2048_S32x2048_0_1 : S1x2048.BroadcastsInDim S32x2048 (![0, 1] : Fin 2 → Fin S32x2048.rank)
  bcast_S32x1_S32x2048_0_1 : S32x1.BroadcastsInDim S32x2048 (![0, 1] : Fin 2 → Fin S32x2048.rank)
  bcast_S32x2048_S32x2048x1_0_1 : S32x2048.BroadcastsInDim S32x2048x1 (![0, 1] : Fin 2 → Fin S32x2048x1.rank)
  bcast_S32x2048x1_S32x2048x512_0_1_2 : S32x2048x1.BroadcastsInDim S32x2048x512 (![0, 1, 2] : Fin 3 → Fin S32x2048x512.rank)
  reducesTo_S32x2048x512_S32x512_d1 : S32x2048x512.ReducesTo [1] S32x512
  h_S_ : 0 < S_.numel
  bcast_S_S32x2048 : S_.BroadcastsInDim S32x2048 (![] : Fin 0 → Fin S32x2048.rank)
  gather_S50257_S32x2048x1_S32x2048_n_0_n_n_0_2_1_wf : GatherDims.WF S50257 S32x2048x1 S32x2048 [] [0] [] [0] [] 2 ![1]

variable [Facts₀]

def gather_S50257_S32x2048x1_S32x2048_n_0_n_n_0_2_1 : GatherDims S50257 S32x2048x1 S32x2048 where
  offsetDims := []
  collapsedSliceDims := [0]
  operandBatchingDims := []
  startIndicesBatchingDims := []
  startIndexMap := [0]
  indexVectorDim := 2
  sliceSizes := ![1]
  wf := gather_S50257_S32x2048x1_S32x2048_n_0_n_n_0_2_1_wf

class Facts : Prop extends Facts₀ where

variable [Facts]
-- ==== Proof.LibContractPlain.lean ====
/-
  The plain product of an M×K matrix by a K×N matrix, read at one entry, at the ideal values.

  A kernel's matrix unit accumulates the product into a splat of zeros; the host's product has no accumulator.
  Both, read at entry (a, b), are the sum over the contracted coordinate c of A (a, c) · B (c, b): a finite sum
  on the extended reals, with no rounding and no order of summation left in it.

  The dimension record is a parameter with an equation to the library's canonical plain record, so that a printed
  program's own record (the same six lists under another name) is accepted with `rfl`.
-/
import Idealize.ShloMosaic.Lib.StackMember

noncomputable section

namespace Cert.Lib.ContractPlain

open Idealize.ShloMosaic Idealize.ShloMosaic.ValueIdx

/-- The host's product of an M×K by a K×N matrix, read at (a, b), is the sum over c of A (a, c) · B (c, b). -/
theorem hostDot_apply {M K N : Nat} {φ₁ φ₂ : FTy} (D : DotDims ⟨2, ![M, K]⟩ ⟨2, ![K, N]⟩ ⟨2, ![M, N]⟩)
    (hD : D = DotDims.plain M K N) (prec : Option ContractPrecision)
    (A : FVec Ideal ⟨2, ![M, K]⟩ φ₁) (B : FVec Ideal ⟨2, ![K, N]⟩ φ₂) (a : Fin M) (b : Fin N) :
    Host.dotGeneral D prec A B (ix2 a b) = ∑ c : Fin K, A (ix2 a c) * B (ix2 c b) := by
  subst hD
  exact StackMember.dotGeneral_plain_apply prec A B a b

/-- A kernel's product of an M×K by a K×N matrix accumulated into the zero splat, read at (a, b), is the same sum:
    the accumulator contributes `0 + ·`. -/
theorem matmulZero_apply {M K N : Nat} {φ₁ φ₂ : FTy} (D : DotDims ⟨2, ![M, K]⟩ ⟨2, ![K, N]⟩ ⟨2, ![M, N]⟩)
    (hD : D = DotDims.plain M K N) (prec : Option ContractPrecision)
    (A : FVec Ideal ⟨2, ![M, K]⟩ φ₁) (B : FVec Ideal ⟨2, ![K, N]⟩ φ₂) (a : Fin M) (b : Fin N) :
    matmul D prec A B (constant (F := Ideal) ⟨2, ![M, N]⟩ .f32 0x00000000#32) (ix2 a b)
      = ∑ c : Fin K, A (ix2 a c) * B (ix2 c b) := by
  rw [matmul_zero_eq_dotGeneral]
  exact hostDot_apply D hD prec A B a b

end Cert.Lib.ContractPlain

end
-- ==== Proof.BlockSums.lean ====
/-
  What the kernel body computes from one batch's blocks, read at one dimension.

  At a grid point the body holds the batch's [1, 2048, 512] slab of vectors x, its [1, 1, 2048] row of mask
  entries μ and its [1, 1, 2048] row of masked weights ω. It drops the slab's leading unit axis, multiplies the
  rows into the slab and into the slab's absolute values on the matrix unit (three 1×2048 by 2048×512 products
  into a zero accumulator) and divides the first product by the second. Read at dimension d the three products are
  the sums over the tokens k of μ k · x (k, d), of μ k · |x (k, d)| and of ω k · x (k, d).
-/
import proofs.«156998_j72181220377041_2_alg».proof.Proof.Gen.KernelIdeal.Skeleton
import proofs.«156998_j72181220377041_2_alg».proof.Proof.LibContractPlain
import Idealize.ShloMosaic.Lib.ValueLayout
import Idealize.ShloMosaic.Lib.Pipeline.Value

noncomputable section

namespace Cert.KernelIdeal.BlockSums

open Cert.KernelIdeal Cert.KernelIdeal.Gen Idealize.ShloMosaic Idealize.ShloMosaic.ValueIdx

/-- The body's contraction is the plain row-by-matrix product. -/
theorem dims_plain : dot_S1x2048_S2048x512_S1x512_1_0_0_1_n_n = DotDims.plain 1 2048 512 := rfl

/-- A row times the slab with its unit axis dropped, read at dimension d: the sum over the tokens. -/
theorem row_times_slab (μ : Vec Ideal S1x1x2048 .f32) (y : FVec Ideal S2048x512 .f32) (d : Fin 512) :
    matmul dot_S1x2048_S2048x512_S1x512_1_0_0_1_n_n (some .fp32)
        (shapeCast S1x2048 μ shapeCasts_S1x1x2048_S1x2048 : FVec Ideal S1x2048 .f32) y
        (constant (F := Ideal) S1x512 .f32 0x00000000#32) (ix2 (0 : Fin 1) d)
      = ∑ k : Fin 2048, μ (ix3 (0 : Fin 1) (0 : Fin 1) k) * y (ix2 k d) := by
  refine (Cert.Lib.ContractPlain.matmulZero_apply _ dims_plain _ _ _ (0 : Fin 1) d).trans ?_
  refine Finset.sum_congr rfl fun k _ => ?_
  exact congrArg (· * y (ix2 k d)) (shapeCast_1ab_ab_apply μ shapeCasts_S1x1x2048_S1x2048 (0 : Fin 1) k)

/-- The ratio payload at dimension d. -/
theorem ratio_block (x : Vec Ideal S1x2048x512 .f32) (μ : Vec Ideal S1x1x2048 .f32) (u v : Fin 1) (d : Fin 512) :
    k0_pay2 (F := Ideal) x μ (ix3 u v d)
      = Ideal.div (∑ k : Fin 2048, μ (ix3 (0 : Fin 1) (0 : Fin 1) k) * x (ix3 (0 : Fin 1) k d))
          (∑ k : Fin 2048, μ (ix3 (0 : Fin 1) (0 : Fin 1) k)
            * max (x (ix3 (0 : Fin 1) k d)) (-(x (ix3 (0 : Fin 1) k d)))) := by
  obtain rfl : v = 0 := Subsingleton.elim _ _
  unfold k0_pay2 k0_pay1
  refine (shapeCast_ab_1ab_apply _ shapeCasts_S1x512_S1x1x512 u (0 : Fin 1) d).trans ?_
  refine (divf_apply _ _ _).trans ?_
  refine congrArg₂ Ideal.div ?_ ?_
  · refine (row_times_slab μ _ d).trans (Finset.sum_congr rfl fun k _ => ?_)
    exact congrArg (μ (ix3 (0 : Fin 1) (0 : Fin 1) k) * ·) (shapeCast_1ab_ab_apply x shapeCasts_S1x2048x512_S2048x512 k d)
  · refine (row_times_slab μ _ d).trans (Finset.sum_congr rfl fun k _ => ?_)
    refine congrArg (μ (ix3 (0 : Fin 1) (0 : Fin 1) k) * ·) ?_
    show max (shapeCast S2048x512 x shapeCasts_S1x2048x512_S2048x512 (ix2 k d)) (-(shapeCast S2048x512 x shapeCasts_S1x2048x512_S2048x512 (ix2 k d))) = _
    rw [shapeCast_1ab_ab_apply x shapeCasts_S1x2048x512_S2048x512 k d]

/-- The weighted-sum payload at dimension d. -/
theorem weighted_block (x : Vec Ideal S1x2048x512 .f32) (ω : Vec Ideal S1x1x2048 .f32) (u v : Fin 1) (d : Fin 512) :
    k0_pay3 (F := Ideal) x ω (ix3 u v d)
      = ∑ k : Fin 2048, ω (ix3 (0 : Fin 1) (0 : Fin 1) k) * x (ix3 (0 : Fin 1) k d) := by
  obtain rfl : v = 0 := Subsingleton.elim _ _
  unfold k0_pay3 k0_pay1
  refine (shapeCast_ab_1ab_apply _ shapeCasts_S1x512_S1x1x512 u (0 : Fin 1) d).trans ?_
  refine (row_times_slab ω _ d).trans (Finset.sum_congr rfl fun k _ => ?_)
  exact congrArg (ω (ix3 (0 : Fin 1) (0 : Fin 1) k) * ·) (shapeCast_1ab_ab_apply x shapeCasts_S1x2048x512_S2048x512 k d)

end Cert.KernelIdeal.BlockSums

end
-- ==== Proof.MaskedSums.lean ====
/-
  The two results as functions of the arrays, and the laws that join the two arrangements.

  Write v (b, t, d) for the sequence of vectors, M (b, t) for the length mask and W (b, t) for the per-token
  weight. The first result is the ratio, per batch b and dimension d,

      (∑ t, M (b, t) · v (b, t, d)) / (∑ t, M (b, t) · |v (b, t, d)|),

  the second the weighted sum ∑ t, (W (b, t) · M (b, t)) · v (b, t, d). The other arrangement masks first:
  it sums v · M, |v · M| and (v · M) · W. Term by term the two agree on the extended reals: a product is
  commutative and associative there with no finiteness needed, and for a mask entry that is 0 or 1 the absolute
  value of v · M is M · |v| (|x| is max x (-x); at M = 0 both sides are 0, at M = 1 both are |v|).
-/
import Idealize.ShloMosaic.PureOps.Ideal
import Idealize.ShloMosaic.PureOps.Ideal.Laws
import Idealize.ShloMosaic.Lib.ValueIdx

noncomputable section

namespace Cert.MaskedSums

open Idealize.ShloMosaic Idealize.ShloMosaic.ValueIdx

/-- The sequence of vectors, [batch, token, dimension]. -/
abbrev SeqShape : Shape := ⟨3, ![32, 2048, 512]⟩
/-- One scalar per token, [batch, token]. -/
abbrev TokShape : Shape := ⟨2, ![32, 2048]⟩
/-- One scalar per batch and dimension. -/
abbrev OutShape : Shape := ⟨2, ![32, 512]⟩

/-- The masked sum over the tokens divided by the masked sum of absolute values, at batch b and dimension d. -/
def ratioAt (v : SeqShape.Idx → EReal) (M : TokShape.Idx → EReal) (b : Fin 32) (d : Fin 512) : EReal :=
  Ideal.div (∑ k : Fin 2048, M (ix2 b k) * v (ix3 b k d))
    (∑ k : Fin 2048, M (ix2 b k) * max (v (ix3 b k d)) (-(v (ix3 b k d))))

/-- The sum over the tokens of the vectors scaled by weight times mask, at batch b and dimension d. -/
def weightedAt (v : SeqShape.Idx → EReal) (M W : TokShape.Idx → EReal) (b : Fin 32) (d : Fin 512) : EReal :=
  ∑ k : Fin 2048, (W (ix2 b k) * M (ix2 b k)) * v (ix3 b k d)

/-- The ratio as an array. -/
def ratio (v : SeqShape.Idx → EReal) (M : TokShape.Idx → EReal) : OutShape.Idx → EReal :=
  fun i => ratioAt v M (i 0) (i 1)

/-- The weighted sum as an array. -/
def weighted (v : SeqShape.Idx → EReal) (M W : TokShape.Idx → EReal) : OutShape.Idx → EReal :=
  fun i => weightedAt v M W (i 0) (i 1)

theorem ratio_ix2 (v : SeqShape.Idx → EReal) (M : TokShape.Idx → EReal) (b : Fin 32) (d : Fin 512) :
    ratio v M (ix2 b d) = ratioAt v M b d := rfl

theorem weighted_ix2 (v : SeqShape.Idx → EReal) (M W : TokShape.Idx → EReal) (b : Fin 32) (d : Fin 512) :
    weighted v M W (ix2 b d) = weightedAt v M W b d := rfl

/-- For a mask entry m that is 0 or 1, |x · m| = m · |x| on the extended reals, infinite x included. -/
theorem abs_mul_bit (x m : EReal) (hm : m = 0 ∨ m = 1) : max (x * m) (-(x * m)) = m * max x (-x) := by
  rcases hm with rfl | rfl
  · simp
  · simp

/-- (x · m) · w = (w · m) · x: commutativity and associativity of the product alone. -/
theorem mul_mask_weight (x m w : EReal) : (x * m) * w = (w * m) * x := by
  rw [mul_comm (x * m) w, mul_comm x m, mul_assoc]

/-- The mask-first arrangement of the ratio is the ratio. -/
theorem ratioAt_of_masked (v : SeqShape.Idx → EReal) (M : TokShape.Idx → EReal) (hM : ∀ j, M j = 0 ∨ M j = 1)
    (b : Fin 32) (d : Fin 512) :
    Ideal.div (0 + ∑ k : Fin 2048, v (ix3 b k d) * M (ix2 b k))
        (0 + ∑ k : Fin 2048, max (v (ix3 b k d) * M (ix2 b k)) (-(v (ix3 b k d) * M (ix2 b k))))
      = ratioAt v M b d := by
  unfold ratioAt
  rw [zero_add, zero_add]
  congr 1
  · exact Finset.sum_congr rfl fun k _ => mul_comm _ _
  · exact Finset.sum_congr rfl fun k _ => abs_mul_bit _ _ (hM _)

/-- The mask-first arrangement of the weighted sum is the weighted sum. -/
theorem weightedAt_of_masked (v : SeqShape.Idx → EReal) (M W : TokShape.Idx → EReal) (b : Fin 32) (d : Fin 512) :
    0 + ∑ k : Fin 2048, (v (ix3 b k d) * M (ix2 b k)) * W (ix2 b k) = weightedAt v M W b d := by
  unfold weightedAt
  rw [zero_add]
  exact Finset.sum_congr rfl fun k _ => mul_mask_weight _ _ _

end Cert.MaskedSums

end
-- ==== Proof.ArraySums.lean ====
/-
  The kernel program's two results as whole arrays.

  Before the launch the host prepares the length mask M (b, t) = [t < length b] and the per-token weights
  W (b, t) (a table lookup), forms W · M, and lays M and W · M out as one row of 2048 lanes per batch. The launch
  runs 32 grid points, one batch each: point t loads batch t's slab of vectors and its two rows, and writes back
  row t of each output, so the 32 written rows tile both [32, 1, 512] output arrays. What point t writes is,
  at dimension d, the ratio (∑ k, M (t, k) · v (t, k, d)) / (∑ k, M (t, k) · |v (t, k, d)|) and the sum
  ∑ k, (W (t, k) · M (t, k)) · v (t, k, d): the specification's ratio and weighted sum at batch t. After the
  launch the host drops the unit axis of both arrays.
-/
import proofs.«156998_j72181220377041_2_alg».proof.Proof.Gen.KernelIdeal.Frame
import proofs.«156998_j72181220377041_2_alg».proof.Proof.BlockSums
import proofs.«156998_j72181220377041_2_alg».proof.Proof.MaskedSums
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.StableHlo
open Idealize.ShloMosaic.Pipeline (Dat)

namespace Cert.KernelIdeal.ArraySums

open Cert.KernelIdeal Cert.KernelIdeal.Gen Idealize.ShloMosaic.ValueIdx

variable (m : (ℓ : Loc nD τ sig) → Buf (Elt Ideal) ℓ) (ρ : Dev nD → PrngReg)

/-- The length mask as the host computes it before the launch: entry (b, t) is the comparison "t < length b",
    signed, converted to a float. -/
def mask (len : IVec S32 32) : FVec Ideal S32x2048 .f32 :=
  uitofp (F := Ideal) .f32 (cmpi .slt (broadcastInDim S32x2048 ![0, 1] bcast_S1x2048_S32x2048_0_1 (broadcastInDim S1x2048 ![1] bcast_S2048_S1x2048_1 (iotaInDim S2048 32 0))) (broadcastInDim S32x2048 ![0, 1] bcast_S32x1_S32x2048_0_1 (broadcastInDim S32x1 ![0] bcast_S32_S32x1_0 len)))

/-- The per-token weights as the host gathers them before the launch: the table read at each token's word, a
    negative word first wrapped by the table's length. -/
def tokenWeights (words : IVec S32x2048 32) (table : FVec Ideal S50257 .f32) : FVec Ideal S32x2048 .f32 :=
  Host.gather gather_S50257_S32x2048x1_S32x2048_n_0_n_n_0_2_1 table (broadcastInDim S32x2048x1 ![0, 1] bcast_S32x2048_S32x2048x1_0_1 (select (cmpi .slt words (broadcastInDim S32x2048 ![] bcast_S_S32x2048 (constantI S_ 32 0#32))) (addi words (broadcastInDim S32x2048 ![] bcast_S_S32x2048 (constantI S_ 32 50257#32))) words))

/-- The launch finds the mask laid out as one lane-dense row per batch. -/
theorem mask_rows (c : Dev nD) : (V m c main_v15 : S32x1x2048.Idx → EReal)
    = broadcastInDim S32x1x2048 ![0, 2] bcast_S32x2048_S32x1x2048_0_2 (mask (m ((c : Thread nD τ).loc main_arg1))) := by
  show StableHlo.after hostOps0 (fun b => m (c, b)) (Proc.devRef .tc main_v15) = _
  after_results
  rfl

/-- And the masked weights, weight times mask, laid out the same way. -/
theorem weight_rows (c : Dev nD) : (V m c main_v16 : S32x1x2048.Idx → EReal)
    = broadcastInDim S32x1x2048 ![0, 2] bcast_S32x2048_S32x1x2048_0_2
        (mulf (F := Ideal) (tokenWeights (m ((c : Thread nD τ).loc main_arg2)) (m ((c : Thread nD τ).loc main_arg3)))
          (mask (m ((c : Thread nD τ).loc main_arg1)))) := by
  show StableHlo.after hostOps0 (fun b => m (c, b)) (Proc.devRef .tc main_v16) = _
  after_results
  rfl

/-- A row layout [32, 1, 2048] of a [32, 2048] array read at (b, 0, k) is the array at (b, k). -/
theorem rows_apply (X : S32x2048.Idx → EReal) (b : Fin 32) (u : Fin 1) (k : Fin 2048) :
    broadcastInDim S32x1x2048 ![0, 2] bcast_S32x2048_S32x1x2048_0_2 X (ix3 b u k) = X (ix2 b k) :=
  broadcastInDim_apply _ bcast_S32x2048_S32x1x2048_0_2 X (ix3 b u k) (ix2 b k) (fun a => match a with
    | ⟨0, _⟩ => by show b.val = if (32 : Nat) = 1 then 0 else b.val; rw [if_neg (by decide)]
    | ⟨1, _⟩ => by show k.val = if (2048 : Nat) = 1 then 0 else k.val; rw [if_neg (by decide)])

/-! ## One grid point -/

theorem zero3 : (![0, 0, 0] : Fin 3 → Nat) = fun _ => 0 := funext fun a => by fin_cases a <;> rfl

/-- Grid point t is batch t. -/
def batchOf (t : Fin cfg0.N) : Fin 32 := ⟨t.val, by have h := t.isLt; have e : cfg0.N = 32 := N_0; omega⟩

/-- Every window's block index at point t is (t, 0, 0): one batch per point. -/
theorem block_index : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_3.index t (0 : Fin 3) = t.val ∧ win0_3.index t (1 : Fin 3) = 0 ∧ win0_3.index t (2 : Fin 3) = 0)
    ∧ (win0_4.index t (0 : Fin 3) = t.val ∧ win0_4.index t (1 : Fin 3) = 0 ∧ win0_4.index t (2 : Fin 3) = 0) :=
  (by decide +kernel : ∀ t : Fin grid0.N, _)

/-- The slab of vectors point t loads is batch t of the argument. -/
theorem slab_apply (c : Dev nD) (t : Fin cfg0.N) (k : Fin 2048) (d : Fin 512) :
    (iblk m c 0 t : Vec Ideal S1x2048x512 .f32) (ix3 (0 : Fin 1) k d)
      = (m ((c : Thread nD τ).loc main_arg0) : S32x2048x512.Idx → EReal) (ix3 (batchOf t) k d) := by
  obtain ⟨⟨e0, e1, e2⟩, -⟩ := block_index t
  unfold iblk
  rw [View.read_apply]
  show V m c main_arg0 _ = _
  rw [V_main_arg0]
  refine congrArg _ (funext fun a => Fin.ext ?_)
  match a with
  | ⟨0, _⟩ => show win0_0.index t (0 : Fin 3) * 1 + 1 * 0 = t.val; omega
  | ⟨1, _⟩ => show win0_0.index t (1 : Fin 3) * 2048 + 1 * k.val = k.val; omega
  | ⟨2, _⟩ => show win0_0.index t (2 : Fin 3) * 512 + 1 * d.val = d.val; omega

/-- The mask row point t loads is batch t's row of the mask. -/
theorem mask_row_apply (c : Dev nD) (t : Fin cfg0.N) (k : Fin 2048) :
    (iblk m c 1 t : Vec Ideal S1x1x2048 .f32) (ix3 (0 : Fin 1) (0 : Fin 1) k)
      = mask (m ((c : Thread nD τ).loc main_arg1)) (ix2 (batchOf t) k) := by
  obtain ⟨-, ⟨e0, e1, e2⟩, -⟩ := block_index t
  unfold iblk
  rw [View.read_apply]
  show (V m c main_v15 : S32x1x2048.Idx → EReal) _ = _
  rw [mask_rows]
  refine Eq.trans (congrArg _ (funext fun a => Fin.ext ?_)) (rows_apply _ (batchOf t) (0 : Fin 1) k)
  match a with
  | ⟨0, _⟩ => show win0_1.index t (0 : Fin 3) * 1 + 1 * 0 = t.val; omega
  | ⟨1, _⟩ => show win0_1.index t (1 : Fin 3) * 1 + 1 * 0 = 0; omega
  | ⟨2, _⟩ => show win0_1.index t (2 : Fin 3) * 2048 + 1 * k.val = k.val; omega

/-- The weight row point t loads is batch t's row of weight times mask. -/
theorem weight_row_apply (c : Dev nD) (t : Fin cfg0.N) (k : Fin 2048) :
    (iblk m c 2 t : Vec Ideal S1x1x2048 .f32) (ix3 (0 : Fin 1) (0 : Fin 1) k)
      = tokenWeights (m ((c : Thread nD τ).loc main_arg2)) (m ((c : Thread nD τ).loc main_arg3)) (ix2 (batchOf t) k)
        * mask (m ((c : Thread nD τ).loc main_arg1)) (ix2 (batchOf t) k) := by
  obtain ⟨-, -, ⟨e0, e1, e2⟩, -⟩ := block_index t
  unfold iblk
  rw [View.read_apply]
  show (V m c main_v16 : S32x1x2048.Idx → EReal) _ = _
  rw [weight_rows]
  refine Eq.trans (congrArg _ (funext fun a => Fin.ext ?_)) ((rows_apply _ (batchOf t) (0 : Fin 1) k).trans (mulf_apply _ _ _))
  match a with
  | ⟨0, _⟩ => show win0_2.index t (0 : Fin 3) * 1 + 1 * 0 = t.val; omega
  | ⟨1, _⟩ => show win0_2.index t (1 : Fin 3) * 1 + 1 * 0 = 0; omega
  | ⟨2, _⟩ => show win0_2.index t (2 : Fin 3) * 2048 + 1 * k.val = k.val; omega

/-! ## What one point computes -/

/-- The ratio payload of blocks that are batch b's parts of whole arrays v and M is the ratio at batch b. -/
theorem ratio_point (x : Vec Ideal S1x2048x512 .f32) (μ : Vec Ideal S1x1x2048 .f32)
    (v : MaskedSums.SeqShape.Idx → EReal) (M : MaskedSums.TokShape.Idx → EReal) (b : Fin 32)
    (hx : ∀ (k : Fin 2048) (d : Fin 512), x (ix3 (0 : Fin 1) k d) = v (ix3 b k d))
    (hμ : ∀ k : Fin 2048, μ (ix3 (0 : Fin 1) (0 : Fin 1) k) = M (ix2 b k)) (y : S1x1x512.Idx) :
    k0_pay2 (F := Ideal) x μ y = MaskedSums.ratioAt v M b (y 2) := by
  obtain ⟨u, w, d, rfl⟩ : ∃ (u w : Fin 1) (d : Fin 512), y = ix3 u w d := ⟨y 0, y 1, y 2, eq_ix3 y⟩
  rw [BlockSums.ratio_block]
  unfold MaskedSums.ratioAt
  simp only [hx, hμ]

/-- The weighted-sum payload likewise, its row being batch b's weights times mask. -/
theorem weighted_point (x : Vec Ideal S1x2048x512 .f32) (ω : Vec Ideal S1x1x2048 .f32)
    (v : MaskedSums.SeqShape.Idx → EReal) (M W : MaskedSums.TokShape.Idx → EReal) (b : Fin 32)
    (hx : ∀ (k : Fin 2048) (d : Fin 512), x (ix3 (0 : Fin 1) k d) = v (ix3 b k d))
    (hω : ∀ k : Fin 2048, ω (ix3 (0 : Fin 1) (0 : Fin 1) k) = W (ix2 b k) * M (ix2 b k)) (y : S1x1x512.Idx) :
    k0_pay3 (F := Ideal) x ω y = MaskedSums.weightedAt v M W b (y 2) := by
  obtain ⟨u, w, d, rfl⟩ : ∃ (u w : Fin 1) (d : Fin 512), y = ix3 u w d := ⟨y 0, y 1, y 2, eq_ix3 y⟩
  rw [BlockSums.weighted_block]
  unfold MaskedSums.weightedAt
  simp only [hx, hω]

/-! ## The two output arrays of the launch -/

/-- The first output array [32, 1, 512]: row b holds the ratio at batch b. -/
def ratioRows (c : Dev nD) : S32x1x512.Idx → EReal := fun i =>
  MaskedSums.ratioAt (m ((c : Thread nD τ).loc main_arg0)) (mask (m ((c : Thread nD τ).loc main_arg1))) (i 0) (i 2)

/-- The second output array [32, 1, 512]: row b holds the weighted sum at batch b. -/
def weightedRows (c : Dev nD) : S32x1x512.Idx → EReal := fun i =>
  MaskedSums.weightedAt (m ((c : Thread nD τ).loc main_arg0)) (mask (m ((c : Thread nD τ).loc main_arg1)))
    (tokenWeights (m ((c : Thread nD τ).loc main_arg2)) (m ((c : Thread nD τ).loc main_arg3))) (i 0) (i 2)

/-- What point t writes back to the first output is row t of `ratioRows`. -/
theorem ratio_flushed (c : Dev nD) (t : Fin cfg0.N) :
    (dats m 0 c).flushed 3 t = ((cfg0.win 3).blk t).view.read (Elt Ideal) (ratioRows m c) := by
  show (cfg0.win 3).cut (grid0.coords t) ((dats m 0 c).after 3 t) = _
  rw [after0_3]
  unfold out0_3
  rw [View.canon_unit_zero zero3]
  simp only [View.ld_unit_zero (S := S1x2048x512) zero3, View.ld_unit_zero (S := S1x1x2048) zero3]
  obtain ⟨-, -, -, ⟨e0, e1, e2⟩, -⟩ := block_index t
  funext j
  show k0_pay2 (F := Ideal) (iblk m c 0 t) (iblk m c 1 t) j = ratioRows m c (((cfg0.win 3).blk t).view.emb j)
  refine (ratio_point (iblk m c 0 t) (iblk m c 1 t) (m ((c : Thread nD τ).loc main_arg0))
    (mask (m ((c : Thread nD τ).loc main_arg1))) (batchOf t) (slab_apply m c t) (mask_row_apply m c t) j).trans ?_
  unfold ratioRows
  refine congrArg₂ (MaskedSums.ratioAt _ _) (Fin.ext ?_) (Fin.ext ?_)
  · show t.val = win0_3.index t (0 : Fin 3) * 1 + 1 * (j 0).val
    have hj : (j 0).val < 1 := (j 0).isLt
    omega
  · show (j 2).val = win0_3.index t (2 : Fin 3) * 512 + 1 * (j 2).val
    omega

/-- What point t writes back to the second output is row t of `weightedRows`. -/
theorem weighted_flushed (c : Dev nD) (t : Fin cfg0.N) :
    (dats m 0 c).flushed 4 t = ((cfg0.win 4).blk t).view.read (Elt Ideal) (weightedRows m c) := by
  show (cfg0.win 4).cut (grid0.coords t) ((dats m 0 c).after 4 t) = _
  rw [after0_4]
  unfold out0_4
  rw [View.canon_unit_zero zero3]
  simp only [View.ld_unit_zero (S := S1x2048x512) zero3, View.ld_unit_zero (S := S1x1x2048) zero3]
  obtain ⟨-, -, -, -, ⟨e0, e1, e2⟩⟩ := block_index t
  funext j
  show k0_pay3 (F := Ideal) (iblk m c 0 t) (iblk m c 2 t) j = weightedRows m c (((cfg0.win 4).blk t).view.emb j)
  refine (weighted_point (iblk m c 0 t) (iblk m c 2 t) (m ((c : Thread nD τ).loc main_arg0))
    (mask (m ((c : Thread nD τ).loc main_arg1)))
    (tokenWeights (m ((c : Thread nD τ).loc main_arg2)) (m ((c : Thread nD τ).loc main_arg3))) (batchOf t)
    (slab_apply m c t) (weight_row_apply m c t) j).trans ?_
  unfold weightedRows
  refine congrArg₂ (MaskedSums.weightedAt _ _ _) (Fin.ext ?_) (Fin.ext ?_)
  · show t.val = win0_4.index t (0 : Fin 3) * 1 + 1 * (j 0).val
    have hj : (j 0).val < 1 := (j 0).isLt
    omega
  · show (j 2).val = win0_4.index t (2 : Fin 3) * 512 + 1 * (j 2).val
    omega

/-- An index of an output array lies in point t's block iff each coordinate lies in the block's range on its axis. -/
theorem mem_block3 (t : Fin cfg0.N) (i : S32x1x512.Idx) :
    i ∈ ((cfg0.win 3).blk t).view.set ↔ ∀ a : Fin 3, win0_3.index t a * S1x1x512.size a ≤ (i a).val
      ∧ (i a).val < win0_3.index t a * S1x1x512.size a + S1x1x512.size a := by
  show i ∈ ((View.whole main_v17_0).slice (win0_3.rect t)).set ↔ _
  rw [View.set_slice_whole, Rect.mem_set_unit]
  exact Iff.rfl
theorem mem_block4 (t : Fin cfg0.N) (i : S32x1x512.Idx) :
    i ∈ ((cfg0.win 4).blk t).view.set ↔ ∀ a : Fin 3, win0_4.index t a * S1x1x512.size a ≤ (i a).val
      ∧ (i a).val < win0_4.index t a * S1x1x512.size a + S1x1x512.size a := by
  show i ∈ ((View.whole main_v17_1).slice (win0_4.rect t)).set ↔ _
  rw [View.set_slice_whole, Rect.mem_set_unit]
  exact Iff.rfl

/-- Row b of an output array is written back by point b: the 32 blocks tile the array. -/
theorem ratio_cover (i : S32x1x512.Idx) :
    ∃ t : Fin cfg0.N, (cfg0.win 3).flush t = true ∧ i ∈ ((cfg0.win 3).blk t).view.set := by
  have h0 : (i 0).val < 32 := (i 0).isLt
  have h1 : (i 1).val < 1 := (i 1).isLt
  have h2 : (i 2).val < 512 := (i 2).isLt
  have hN : cfg0.N = 32 := N_0
  obtain ⟨t, ht⟩ : ∃ t : Fin cfg0.N, t.val = (i 0).val := ⟨⟨(i 0).val, by omega⟩, rfl⟩
  obtain ⟨-, -, -, ⟨e0, e1, e2⟩, -⟩ := block_index t
  refine ⟨t, flush0_3 t, ?_⟩
  rw [mem_block3]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 1 ≤ (i 1).val ∧ (i 1).val < win0_3.index t (1 : Fin 3) * 1 + 1; omega
  | ⟨2, _⟩ => show win0_3.index t (2 : Fin 3) * 512 ≤ (i 2).val ∧ (i 2).val < win0_3.index t (2 : Fin 3) * 512 + 512; omega
theorem weighted_cover (i : S32x1x512.Idx) :
    ∃ t : Fin cfg0.N, (cfg0.win 4).flush t = true ∧ i ∈ ((cfg0.win 4).blk t).view.set := by
  have h0 : (i 0).val < 32 := (i 0).isLt
  have h1 : (i 1).val < 1 := (i 1).isLt
  have h2 : (i 2).val < 512 := (i 2).isLt
  have hN : cfg0.N = 32 := N_0
  obtain ⟨t, ht⟩ : ∃ t : Fin cfg0.N, t.val = (i 0).val := ⟨⟨(i 0).val, by omega⟩, rfl⟩
  obtain ⟨-, -, -, -, ⟨e0, e1, e2⟩⟩ := block_index t
  refine ⟨t, flush0_4 t, ?_⟩
  rw [mem_block4]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 1 ≤ (i 1).val ∧ (i 1).val < win0_4.index t (1 : Fin 3) * 1 + 1; omega
  | ⟨2, _⟩ => show win0_4.index t (2 : Fin 3) * 512 ≤ (i 2).val ∧ (i 2).val < win0_4.index t (2 : Fin 3) * 512 + 512; omega

/-- After the launch the two output arrays hold the ratio and the weighted sum, row by row. -/
theorem ratio_final (c : Dev nD) : (dats m 0 c).arrAt 3 cfg0.N = ratioRows m c :=
  (dats m 0 c).arrAt_eq_of_cover 3 (ratioRows m c) (fun t _ => ratio_flushed m c t) ratio_cover
theorem weighted_final (c : Dev nD) : (dats m 0 c).arrAt 4 cfg0.N = weightedRows m c :=
  (dats m 0 c).arrAt_eq_of_cover 4 (weightedRows m c) (fun t _ => weighted_flushed m c t) weighted_cover

/-! ## The reshapes after the launch, and the run -/

/-- An output array [32, 1, 512] reshaped to [32, 512] reads, at (b, d), the array at (b, 0, d). -/
theorem squeeze_rows (X : S32x1x512.Idx → EReal) (b : Fin 32) (d : Fin 512) :
    shapeCast S32x512 X shapeCasts_S32x1x512_S32x512 (ix2 b d) = X (ix3 b (0 : Fin 1) d) :=
  shapeCast_apply X _ _ _ (by
    rw [Shape.rowMajor_val_three, Shape.rowMajor_val_two]
    show (b.val * 1 + 0) * 512 + d.val = b.val * 512 + d.val
    omega)

/-- The first result: the first output array with its unit axis dropped is the ratio. -/
theorem tail_ratio (c : Dev nD) :
    (Pipeline.afterTail₀ cfgs (dats m) 0 (V0 m) [hostOps1] c main_v18 : S32x512.Idx → EReal)
      = MaskedSums.ratio (m ((c : Thread nD τ).loc main_arg0)) (mask (m ((c : Thread nD τ).loc main_arg1))) := by
  unfold Pipeline.afterTail₀
  show StableHlo.after hostOps1 _ (Proc.devRef .tc main_v18) = _
  after_results
  funext i
  obtain ⟨b, d, rfl⟩ : ∃ (b : Fin 32) (d : Fin 512), i = ix2 b d := ⟨i 0, i 1, eq_ix2 i⟩
  show shapeCast S32x512 (Pipeline.withArrays spec0 c (V0 m c) (fun w => (dats m 0 c).arrAt w cfg0.N)
    (Proc.devRef .tc (Pipeline.arrRef spec0 3)) : S32x1x512.Idx → EReal) shapeCasts_S32x1x512_S32x512 (ix2 b d) = _
  rw [Pipeline.withArrays_arr spec0 launch0.win.arr_inj c _ _ 3, ratio_final]
  exact squeeze_rows _ b d

/-- The second result: the second output array with its unit axis dropped is the weighted sum. -/
theorem tail_weighted (c : Dev nD) :
    (Pipeline.afterTail₀ cfgs (dats m) 0 (V0 m) [hostOps1] c main_v19 : S32x512.Idx → EReal)
      = MaskedSums.weighted (m ((c : Thread nD τ).loc main_arg0)) (mask (m ((c : Thread nD τ).loc main_arg1)))
          (tokenWeights (m ((c : Thread nD τ).loc main_arg2)) (m ((c : Thread nD τ).loc main_arg3))) := by
  unfold Pipeline.afterTail₀
  show StableHlo.after hostOps1 _ (Proc.devRef .tc main_v19) = _
  after_results
  funext i
  obtain ⟨b, d, rfl⟩ : ∃ (b : Fin 32) (d : Fin 512), i = ix2 b d := ⟨i 0, i 1, eq_ix2 i⟩
  show shapeCast S32x512 (Pipeline.withArrays spec0 c (V0 m c) (fun w => (dats m 0 c).arrAt w cfg0.N)
    (Proc.devRef .tc (Pipeline.arrRef spec0 4)) : S32x1x512.Idx → EReal) shapeCasts_S32x1x512_S32x512 (ix2 b d) = _
  rw [Pipeline.withArrays_arr spec0 launch0.win.arr_inj c _ _ 4, weighted_final]
  exact squeeze_rows _ b d

/-- The kernel program's run, read: every weakly fair execution ends with the two results at the ratio and the
    weighted sum of the argument arrays (the mask and the weights as the host prepares them), the arguments unchanged. -/
theorem run : θ_run defs (onTc (τ := τ) (main (F := Ideal))) ⟨m, fun _ => 0, ρ⟩ fun r => ∀ c : Dev nD,
      r.2.mem ((c.tc : Thread nD τ).loc main_v18)
        = MaskedSums.ratio (m ((c : Thread nD τ).loc main_arg0)) (mask (m ((c : Thread nD τ).loc main_arg1)))
      ∧ r.2.mem ((c.tc : Thread nD τ).loc main_v19)
        = MaskedSums.weighted (m ((c : Thread nD τ).loc main_arg0)) (mask (m ((c : Thread nD τ).loc main_arg1)))
            (tokenWeights (m ((c : Thread nD τ).loc main_arg2)) (m ((c : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v18 (Pipeline.mem_restRefs_of main_v18 (by decide) (by decide))).trans (tail_ratio m c),
     ((h c).2 main_v19 (Pipeline.mem_restRefs_of main_v19 (by decide) (by decide))).trans (tail_weighted m c),
     ((h c).1 0).trans (((dats m 0 c).arrAt_in 0 rfl _).trans ((A_eq m c 0).trans (V_main_arg0 m c))),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c)⟩)
    (run_main m ρ)

end Cert.KernelIdeal.ArraySums

end
-- ==== Proof.ReferenceSums.lean ====
/-
  The reference's two results are the ratio and the weighted sum of the specification.

  The reference masks first: it multiplies every vector by its token's mask entry, sums the products and their
  absolute values over the tokens and divides, and sums the products scaled by the token's weight. Its mask is
  the comparison "token index < sentence length" converted to a float, so every entry is 0 or 1, which is what
  the law for the absolute value needs; the weights are read as the gather leaves them and never opened.
-/
import proofs.«156998_j72181220377041_2_alg».proof.Proof.Gen.ReferenceIdeal.Read
import proofs.«156998_j72181220377041_2_alg».proof.Proof.MaskedSums

noncomputable section

namespace Cert.ReferenceIdeal.Sums

open Cert.ReferenceIdeal Cert.ReferenceIdeal.Read Idealize.ShloMosaic Idealize.ShloMosaic.ValueIdx

/-- A one-bit integer read as an extended real is 0 or 1. -/
theorem bit_zero_or_one (b : BitVec 1) :
    FloatOps.uitofp (F := Ideal) .f32 b = 0 ∨ FloatOps.uitofp (F := Ideal) .f32 b = 1 := by
  have hb : b = 0#1 ∨ b = 1#1 := by revert b; decide
  rcases hb with rfl | rfl
  · left; show (((0#1 : BitVec 1).toNat : ℝ) : EReal) = 0; simp
  · right; show (((1#1 : BitVec 1).toNat : ℝ) : EReal) = 1; simp

/-- Every entry of the reference's mask is 0 or 1. -/
theorem mask_zero_or_one (x1 : (⟨S32, .i32⟩ : BufTy).Contents (Elt Ideal)) (j : S32x2048.Idx) :
    val_main_v6 (F := Ideal) x1 j = 0 ∨ val_main_v6 (F := Ideal) x1 j = 1 := by
  rw [val_main_v6_apply]
  exact bit_zero_or_one _

/-- The token-axis coordinates the reference's sums run over, and where the broadcast mask and weights are read. -/
theorem sum_idx (b : Fin 32) (d : Fin 512) (k : Fin 2048) : idx_main_v10 (ix2 b d) k = ix3 b k d :=
  funext fun a => Fin.ext (by match a with | ⟨0, _⟩ => rfl | ⟨1, _⟩ => rfl | ⟨2, _⟩ => rfl)
theorem sum_idx_abs (b : Fin 32) (d : Fin 512) (k : Fin 2048) : idx_main_v12 (ix2 b d) k = ix3 b k d := sum_idx b d k
theorem sum_idx_weighted (b : Fin 32) (d : Fin 512) (k : Fin 2048) : idx_main_v24 (ix2 b d) k = ix3 b k d := sum_idx b d k
theorem weight_idx (b : Fin 32) (d : Fin 512) (k : Fin 2048) : idx_main_v21 (idx_main_v22 (ix3 b k d)) = ix2 b k :=
  funext fun a => Fin.ext (by match a with | ⟨0, _⟩ => rfl | ⟨1, _⟩ => rfl)
theorem tok_idx (b : Fin 32) (d : Fin 512) (k : Fin 2048) : idx_main_v7 (idx_main_v8 (ix3 b k d)) = ix2 b k :=
  funext fun a => Fin.ext (by match a with | ⟨0, _⟩ => rfl | ⟨1, _⟩ => rfl)

/-- The reference's first result is the ratio, with the reference's own mask. -/
theorem ratio_eq (x0 : (⟨S32x2048x512, .f32⟩ : BufTy).Contents (Elt Ideal)) (x1 : (⟨S32, .i32⟩ : BufTy).Contents (Elt Ideal)) :
    val_main_v13 (F := Ideal) x0 x1 = MaskedSums.ratio x0 (val_main_v6 (F := Ideal) x1) := by
  funext i
  obtain ⟨b, d, rfl⟩ : ∃ (b : Fin 32) (d : Fin 512), i = ix2 b d := ⟨i 0, i 1, eq_ix2 i⟩
  rw [MaskedSums.ratio_ix2, ← MaskedSums.ratioAt_of_masked x0 _ (mask_zero_or_one x1) b d,
    val_main_v13_apply, val_main_v10_apply, val_main_v12_apply]
  simp only [val_main_v11_apply, val_main_v9_apply, val_main_v8_apply, val_main_v7_apply, val_main_cst_apply,
    val_main_cst_0_apply, sum_idx, sum_idx_abs, tok_idx, Ideal.hostDivf_def, Ideal.hostAbsf_def, Ideal.absf_def, Ideal.mulf_def,
    Ideal.ofBits_def, Ideal.ofBits_zero_f32]

/-- The reference's second result is the weighted sum, with the reference's own mask and gathered weights. -/
theorem weighted_eq (x0 : (⟨S32x2048x512, .f32⟩ : BufTy).Contents (Elt Ideal)) (x1 : (⟨S32, .i32⟩ : BufTy).Contents (Elt Ideal))
    (x2 : (⟨S32x2048, .i32⟩ : BufTy).Contents (Elt Ideal)) (x3 : (⟨S50257, .f32⟩ : BufTy).Contents (Elt Ideal)) :
    val_main_v24 (F := Ideal) x0 x1 x2 x3
      = MaskedSums.weighted x0 (val_main_v6 (F := Ideal) x1) (val_main_v20 (F := Ideal) x2 x3) := by
  funext i
  obtain ⟨b, d, rfl⟩ : ∃ (b : Fin 32) (d : Fin 512), i = ix2 b d := ⟨i 0, i 1, eq_ix2 i⟩
  rw [MaskedSums.weighted_ix2, ← MaskedSums.weightedAt_of_masked x0 _ _ b d, val_main_v24_apply]
  simp only [val_main_v23_apply, val_main_v22_apply, val_main_v21_apply, val_main_v9_apply, val_main_v8_apply,
    val_main_v7_apply, val_main_cst_2_apply, sum_idx_weighted, weight_idx, tok_idx, Ideal.mulf_def,
    Ideal.ofBits_def, Ideal.ofBits_zero_f32]

end Cert.ReferenceIdeal.Sums

end
-- ==== Proof.lean ====
/-
  The certificate of a masked, length-normalised reduction over the tokens of a batch of sentences.

  Inputs: vectors v [32, 2048, 512], sentence lengths [32], words [32, 2048] and a weight table [50257]. With the
  mask M (b, t) = [t < length b] and the per-token weight W (b, t) = table[word (b, t)], both programs return

      y (b, d)  = (∑ t, M (b, t) · v (b, t, d)) / (∑ t, M (b, t) · |v (b, t, d)|)   and
      ŷ (b, d) = ∑ t, (W (b, t) · M (b, t)) · v (b, t, d).

  The kernel multiplies the mask row and the masked-weight row into each batch's slab of vectors as three
  row-by-matrix products, one batch per grid point; the reference first masks the vectors, v · M, then sums them,
  their absolute values and their products with W over the token axis. On the extended reals the two are equal
  term by term inside the sums: the product is commutative and associative, and |v · M| = M · |v| because a mask
  entry is 0 or 1. No finiteness of the inputs is used. Both programs compute the mask and gather the weights by
  the same host operations on the same arguments, and the quotient is the same function on both sides.

  The frames of the two kernel programs are the generated ones; the reference's frame is its generated run with
  the results dropped; the ideal pass rewrote nothing, so the kernel's idealization is its own text.
-/
import proofs.«156998_j72181220377041_2_alg».proof.Defs
import proofs.«156998_j72181220377041_2_alg».proof.Proof.Gen.Kernel
import proofs.«156998_j72181220377041_2_alg».proof.Proof.Gen.Kernel.Frame
import proofs.«156998_j72181220377041_2_alg».proof.Proof.Gen.KernelIdeal
import proofs.«156998_j72181220377041_2_alg».proof.Proof.Gen.KernelIdeal.Frame
import proofs.«156998_j72181220377041_2_alg».proof.Proof.Gen.ReferenceIdeal
import proofs.«156998_j72181220377041_2_alg».proof.Proof.Gen.ReferenceIdeal.Run
import proofs.«156998_j72181220377041_2_alg».proof.Proof.Gen.ReferenceIdeal.Read
import proofs.«156998_j72181220377041_2_alg».proof.Proof.Gen.Pre_finite_inputs
import proofs.«156998_j72181220377041_2_alg».proof.Proof.ArraySums
import proofs.«156998_j72181220377041_2_alg».proof.Proof.ReferenceSums
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2.2) (Cert.ReferenceIdeal.Value.run (F := Ideal) m ρ)

/-- The two programs prepare the mask by the same host operations. -/
theorem mask_eq (len : IVec Cert.KernelIdeal.S32 32) :
    Cert.KernelIdeal.ArraySums.mask len = Cert.ReferenceIdeal.Read.val_main_v6 (F := Ideal) len := rfl

/-- And gather the per-token weights by the same host operations. -/
theorem weights_eq (words : IVec Cert.KernelIdeal.S32x2048 32) (table : FVec Ideal Cert.KernelIdeal.S50257 .f32) :
    Cert.KernelIdeal.ArraySums.tokenWeights words table = Cert.ReferenceIdeal.Read.val_main_v20 (F := Ideal) words table := rfl

/-- From memories agreeing on the arguments both programs end with the ratio and the weighted sum of the
    arguments: the kernel by its run read back array by array, the reference by its generated run and the
    term-by-term laws. -/
theorem algebraic : Cert.algebraic_KernelIdeal_ReferenceIdeal := by
  intro m ρ m' ρ' _ hagree
  refine ⟨_, _, Cert.KernelIdeal.ArraySums.run m ρ, ?_⟩
  refine (θ_run Cert.ReferenceIdeal.defs _ _).mono
    (fun _ h c => ⟨(h c).1.trans ?_, (h c).2.1.trans ?_, (h c).2.2⟩)
    (Cert.ReferenceIdeal.Value.run (F := Ideal) m' ρ')
  · rw [Cert.ReferenceIdeal.Read.val_main_v13_eq, Cert.ReferenceIdeal.Sums.ratio_eq, (hagree c).1, (hagree c).2.1,
      ← mask_eq]
  · rw [Cert.ReferenceIdeal.Read.val_main_v24_eq, Cert.ReferenceIdeal.Sums.weighted_eq, (hagree c).1, (hagree c).2.1,
      (hagree c).2.2.1, (hagree c).2.2.2, ← mask_eq, ← weights_eq]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
